-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S1x4096 : Shape := ⟨2, ![1, 4096]⟩
abbrev S1024x2048 : Shape := ⟨2, ![1024, 2048]⟩
abbrev S1x2048 : Shape := ⟨2, ![1, 2048]⟩
abbrev S2048 : Shape := ⟨1, ![2048]⟩
abbrev S16384x1 : Shape := ⟨2, ![16384, 1]⟩
abbrev S512x4096 : Shape := ⟨2, ![512, 4096]⟩
abbrev S512x1 : Shape := ⟨2, ![512, 1]⟩
abbrev S512x1024 : Shape := ⟨2, ![512, 1024]⟩
abbrev S1x1024 : Shape := ⟨2, ![1, 1024]⟩
abbrev S512 : Shape := ⟨1, ![512]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x4096, .f32⟩
  | .local _ .vmem, ⟨6, _⟩ => ⟨S512x4096, .f32⟩
  | .local _ .vmem, ⟨7, _⟩ => ⟨S1x4096, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

@[reducible] def k1_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c1024_i32 : BitVec 32 := 1024#32
  let v9 : BitVec 32 := Scalar.muli arg5 c1024_i32
  v9
def k1_off1 (k1_t1 : Fin k1_t1_loop.trips) : Fin 2 → Nat :=
  let c0_7 : Index := 0#32
  let c0_i32 : BitVec 32 := 0#32
  let c1_i32 : BitVec 32 := 1#32
  let arg5 : BitVec 32 := Scf.iv c0_i32 c1_i32 k1_t1
  let c1024_i32 : BitVec 32 := 1024#32
  let v9 : BitVec 32 := Scalar.muli arg5 c1024_i32
  let v10 : BitVec 32 := v9
  let v11 : Index := Scalar.indexCast v10
  ![0, v11.toNat]
def k1_off2 (k1_t1 : Fin k1_t1_loop.trips) : Fin 2 → Nat :=
  let c0_8 : Index := 0#32
  let c0_i32 : BitVec 32 := 0#32
  let c1_i32 : BitVec 32 := 1#32
  let arg5 : BitVec 32 := Scf.iv c0_i32 c1_i32 k1_t1
  let c1024_i32 : BitVec 32 := 1024#32
  let v9 : BitVec 32 := Scalar.muli arg5 c1024_i32
  let v10 : BitVec 32 := v9
  let v13 : Index := Scalar.indexCast v10
  ![0, v13.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x1024 : 0 < S512x1024.numel
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .f32 = 32 ∨ (Rect.block (s := S16384x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S512x1024.size a ≤ S512x4096.size a
  k1_off2_inb : ∀ k1_t1 : Fin k1_t1_loop.trips, ∀ a, (k1_off2 k1_t1) a + S1x1024.size a ≤ S1x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S_ : Shape := ⟨0, ![]⟩
abbrev S4096 : Shape := ⟨1, ![4096]⟩
abbrev S1x4096 : Shape := ⟨2, ![1, 4096]⟩
abbrev S16384 : Shape := ⟨1, ![16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S_, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x4096_S4096_d0 : S16384x4096.ReducesTo [0] S4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S16384_d1 : S16384x4096.ReducesTo [1] S16384
  reducesTo_S16384_S_d0 : S16384.ReducesTo [0] S_

variable [Facts₀]

class Facts : Prop extends Facts₀ where

variable [Facts]
-- ==== Proof.K_Shared.lean ====
/-
  What the two kernels' bodies are stated over, for any float instance.

  Kernel 0 walks a grid of 2 column halves by 16 row tiles; the grid point t = 16·c + r. Its body zeroes
  a one-row accumulator at r = 0, adds the tile's column sums of squares at every point, and at r = 15
  stores the square root into the output block. So a point is in one of three cases: first tile (r = 0),
  middle tile, last tile (r = 15); the output window is idle and not written back except in the last.
  Kernel 1 walks 32 row blocks; its body has no branch.
-/
import proofs.«141915_j33500744909423_2_alg».proof.Proof.Gen.Kernel.Launch
import proofs.«141915_j33500744909423_2_alg».proof.Proof.Gen.Kernel.Skeleton
import proofs.«141915_j33500744909423_2_alg».proof.Proof.Gen.Kernel.Points
import proofs.«141915_j33500744909423_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Kernel 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Kernel 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Kernel 0's two branch conditions over the grid -/

/-- "This is the first row tile" (r = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last row tile" (r = 15), as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where kernel 0's windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem liveAt1 : ∀ (w : Fin cfg1.W) (t : Fin cfg1.N), cfg1.idle w (grid1.coords t) = false := by decide +kernel

/-! ## The memrefs the bodies are called with -/

abbrev VO0_1 : View sig .tc .vmem S1x2048 .f32 := (Memref.whole cc0_stg1_0 : Memref sig .tc .vmem S1x2048 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- Kernel 0's accumulator: a scoped buffer of its own, carried from point to point. -/
abbrev scM0_0 : Memref sig .tc .vmem S1x2048 .f32 := Memref.whole cc0_scratch0
abbrev VS0_0 : View sig .tc .vmem S1x2048 .f32 := scM0_0.view

abbrev VO1_2 : View sig .tc .vmem S512x1 .f32 := (Memref.whole cc1_stg2_0 : Memref sig .tc .vmem S512x1 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
/-- Kernel 1's accumulator: zeroed at every point, so nothing is carried. -/
abbrev scM1_0 : Memref sig .tc .vmem S512x1 .f32 := Memref.whole cc1_scratch0

/-- The region invariant of kernel 0 with its accumulator singled out. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.Kernel.Hand

end
-- ==== Proof.K_Run0A.lean ====
/-
  Kernel 0's body at a FIRST row tile (r = 0): the accumulator, found at anything, is zeroed and then
  receives the tile's column sums of squares; the output buffer is handed back untouched. The pieces the
  accumulator ends with are found by running the body.
-/
import proofs.«141915_j33500744909423_2_alg».proof.Proof.K_Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K_Run0B.lean ====
/-
  Kernel 0's body at a MIDDLE row tile (0 < r < 15): the accumulator, found at what the point before
  left, receives the tile's column sums of squares on top; the output buffer is handed back untouched.
-/
import proofs.«141915_j33500744909423_2_alg».proof.Proof.K_Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K_Run0C.lean ====
/-
  Kernel 0's body at a LAST row tile (r = 15): the accumulator receives the tile's column sums of squares
  on top of what the point before left, and its square root is stored into the output buffer.
-/
import proofs.«141915_j33500744909423_2_alg».proof.Proof.K_Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K_Region0.lean ====
/-
  Kernel 0's region, for any float instance and any contents `V` of the buffers when the region is entered.

  What the accumulator and the output buffer hold after each grid point, by recursion on the point
  (t = 16·c + r): at r = 0 the first-tile case run on the point's input block; at 0 < r < 15 the
  middle-tile case run on the block and on what point t − 1 left in the accumulator; at r = 15 the
  last-tile case likewise, which also fills the output buffer. The region invariant carries the
  accumulator at exactly those contents from one point to the next (and the other kernel's scoped
  buffers at anything); with it every point's body meets its obligation.
-/
import proofs.«141915_j33500744909423_2_alg».proof.Proof.K_Run0A
import proofs.«141915_j33500744909423_2_alg».proof.Proof.K_Run0B
import proofs.«141915_j33500744909423_2_alg».proof.Proof.K_Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) : Vec F S1x2048 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) (y : S1x2048.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x2048.size (by sl_kernel_rfl) y

def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) : Vec F S1x2048 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) : Vec F S1x2048 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) (y : S1x2048.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x2048.size (by sl_kernel_rfl) y

def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) : Vec F S1x2048 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) (y : S1x2048.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x2048.size (by sl_kernel_rfl) y

def out0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) : Vec F S1x2048 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) (y : S1x2048.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x2048.size (by sl_kernel_rfl) y

def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) : Vec F S1x2048 .f32 :=
  VS0_0.read (Elt F) (VS0_0.writes (Elt F) VS0_0.junk (kernelRun0_C c i arg2 harg2 arg3 harg3 arg4 harg4 hc0 hc1 x0 xs0).2.1)

/-! ## Point by point -/

/-- What the output buffer (first component) and the accumulator (second) hold after the body at position `n`. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other kernel's scoped buffers, each whole at anything: they ride along untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0_0 fullShare d) ∗ rest0 c) ∗ (∃ r, prngReg c r)) := PhiA0_eq c

/-- Before the first point every scoped buffer is at anything; before any later point the accumulator holds what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq']
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS_castSucc V c t, PhiS_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _)
            iexact Hr
          iexact Hg
        isplitl [Ho]; · iexact Ho
        isplitl [H0]; · iexact H0
        iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back at anything. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq']
  iintro ⟨⟨HS0, Hr⟩, Hg⟩
  isplitl [HS0 Hr]
  · isplitl [HS0]
    · iexists _; iexact HS0
    iexact Hr
  iexact Hg

end Cert.Kernel.Hand

end
-- ==== Proof.K_Run1.lean ====
/-
  Kernel 1's body at any point: the accumulator column, found at anything, is zeroed; four trips each add
  one chunk's row sums of the entropy terms; the output buffer, found at anything, receives 0 − accumulator.
  The counted loop is passed through by its invariant (the pieces of the trips so far), never unrolled.
-/
import proofs.«141915_j33500744909423_2_alg».proof.Proof.K_Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) :
    { L2 : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc1__entropy_kernel i arg1 harg1 arg2 harg2 arg3 harg3 arg4 harg4) K } := by
  refine ⟨?_, fun E K => ?run⟩
  case run =>
    simp only [cc1__entropy_kernel_eq_skeleton]; unfold cc1__entropy_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexists _; isplitr
    swap; · iexact HS0
    ipureintro; rfl

end Cert.Kernel.Hand

end
-- ==== Proof.K_Region1.lean ====
/-
  Kernel 1's region, for any float instance and any contents `V` of the buffers when the region is entered.

  Every grid point is alike: the body finds its row block of the argument and the whole row of column
  norms in its input buffers, and leaves in the output buffer the pieces the body's run found (one
  store of 0 − accumulator). The accumulator is zeroed at every point, so the region invariant is the
  plain one (every scoped buffer at anything).
-/
import proofs.«141915_j33500744909423_2_alg».proof.Proof.K_Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_2 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) (y : S512x1.Idx) :
    ∃ pc ∈ (kernelRun1 c i arg1 harg1 arg2 harg2 arg3 harg3 arg4 harg4 x0 x1).1, y ∈ pc.1.set :=
  View.cover_of_tiledL (kernelRun1 c i arg1 harg1 arg2 harg2 arg3 harg3 arg4 harg4 x0 x1).1 S512x1.size (by sl_kernel_rfl) y

/-- What the body leaves in the output buffer: its pieces read back. -/
def out1_2 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) : Vec F S512x1 .f32 :=
  VO1_2.read (Elt F) (VO1_2.writes (Elt F) VO1_2.junk (kernelRun1 c i arg1 harg1 arg2 harg2 arg3 harg3 arg4 harg4 x0 x1).1)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) scM1_0 (Memref.isWhole_whole _) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) scM1_0 (Memref.isWhole_whole _) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1 0 t], after1_0]
  rw [show (dat1 V c).leavesExact 1 t = owns (c : Thread nD τ) (ms1_1 t) fullShare ((dat1 V c).after 1 t) from by
    unfold Dat.leavesExact; rw [liveAt1 1 t], after1_1]
  rw [show (dat1 V c).leavesExact 2 t = owns (c : Thread nD τ) (ms1_2 t) fullShare ((dat1 V c).after 2 t) from by
    unfold Dat.leavesExact; rw [liveAt1 2 t], after1_2]
  unfold out1_2; (try dsimp only)
  iintro ⟨⟨⟨Ha, Hb, Hc, Hd, He, HS0⟩, Hg⟩, Ho, ⟨%d0, H0⟩, ⟨%d1, H1⟩, ⟨%d2, H2⟩⟩
  iapply ((kernelRun1 c (grid1.coords t) _ _ _ _ _ _ _ _ (iblk1 V c 0 t) (iblk1 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [Ha Hb Hc Hd He HS0 Hg]
  · isplitl [Ha Hb Hc Hd He HS0]
    · isplitl [Ha]; · iexact Ha
      isplitl [Hb]; · iexact Hb
      isplitl [Hc]; · iexact Hc
      isplitl [Hd]; · iexact Hd
      isplitl [He]; · iexact He
      iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Main.lean ====
/-
  The whole program's run, for any float instance: region 0, region 1, then four host operations.

  The buffers' contents at each boundary are a fold from the launch memory: at region 0's exit its two
  arrays hold what the pipeline's write-backs leave (the argument as entered, the column norms block by
  block) and every other buffer is as entered; likewise at region 1's exit; then the host operations'
  results. Each region is entered from "every unscoped buffer at the boundary's contents, the generator
  register at some state, nothing owed" and left at the same with the next contents. Every weakly fair
  execution ends with every unscoped buffer at the last contents; the argument array's entry in that
  fold walks back to the launch memory.
-/
import proofs.«141915_j33500744909423_2_alg».proof.Proof.K_Region0
import proofs.«141915_j33500744909423_2_alg».proof.Proof.K_Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev Wa : Dev nD → Valuation τ sig (Elt F) := fun c b => m ((c : Dev nD), b)
abbrev Va : (c : Dev nD) → (b : Ref sig .tc) → Buf (Elt F) ((c : Thread nD τ).loc b) := fun c b => Wa m c b
/-- At region 0's exit (region 1's entry). -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- At region 1's exit. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)
/-- After the host operations (the end). -/
abbrev Wd : Dev nD → Valuation τ sig (Elt F) := fun c => StableHlo.after hostOps2 (Wc m c)

/-- The argument ends as launched: no host operation writes it and each region only reads it. -/
theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m c (Proc.devRef .tc main_arg0) := (Wc_arr m c 0).trans (((dat1 (Vb m) c).arrAt_in 0 rfl _).trans (A_eq1 (Vb m) c 0))
    _ = Wa m c (Proc.devRef .tc main_arg0) := (Wb_arr m c 0).trans (((dat0 (Va m) c).arrAt_in 0 rfl _).trans (A_eq0 (Va m) c 0))
    _ = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
abbrev Tₙ (c : Dev nD) : sProp 𝕄 := iprop(StableHlo.held (c : Thread nD τ) (Pipeline.ucRefs τ sig) (Wd m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (Va m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (Wc m)) ]
theorem main_run (c : Dev nD) : main (F := F) c = Pipeline.Seg.run (segs m) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun c => by
      show iprop(StableHlo.held (c : Thread nD τ) (Pipeline.ucRefs τ sig) (Wd m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (Wd_main_arg0 m c)) (run_all m ρ)

end Cert.Kernel.Hand

end
-- ==== Proof.KI_Shared.lean ====
/-
  What the two kernels' bodies are stated over, for any float instance.

  Kernel 0 walks a grid of 2 column halves by 16 row tiles; the grid point t = 16·c + r. Its body zeroes
  a one-row accumulator at r = 0, adds the tile's column sums of squares at every point, and at r = 15
  stores the square root into the output block. So a point is in one of three cases: first tile (r = 0),
  middle tile, last tile (r = 15); the output window is idle and not written back except in the last.
  Kernel 1 walks 32 row blocks; its body has no branch.
-/
import proofs.«141915_j33500744909423_2_alg».proof.Proof.Gen.KernelIdeal.Launch
import proofs.«141915_j33500744909423_2_alg».proof.Proof.Gen.KernelIdeal.Skeleton
import proofs.«141915_j33500744909423_2_alg».proof.Proof.Gen.KernelIdeal.Points
import proofs.«141915_j33500744909423_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Kernel 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Kernel 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Kernel 0's two branch conditions over the grid -/

/-- "This is the first row tile" (r = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last row tile" (r = 15), as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where kernel 0's windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem liveAt1 : ∀ (w : Fin cfg1.W) (t : Fin cfg1.N), cfg1.idle w (grid1.coords t) = false := by decide +kernel

/-! ## The memrefs the bodies are called with -/

abbrev VO0_1 : View sig .tc .vmem S1x2048 .f32 := (Memref.whole cc0_stg1_0 : Memref sig .tc .vmem S1x2048 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- Kernel 0's accumulator: a scoped buffer of its own, carried from point to point. -/
abbrev scM0_0 : Memref sig .tc .vmem S1x2048 .f32 := Memref.whole cc0_scratch0
abbrev VS0_0 : View sig .tc .vmem S1x2048 .f32 := scM0_0.view

abbrev VO1_2 : View sig .tc .vmem S512x1 .f32 := (Memref.whole cc1_stg2_0 : Memref sig .tc .vmem S512x1 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
/-- Kernel 1's accumulator: zeroed at every point, so nothing is carried. -/
abbrev scM1_0 : Memref sig .tc .vmem S512x1 .f32 := Memref.whole cc1_scratch0

/-- The region invariant of kernel 0 with its accumulator singled out. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.KernelIdeal.Hand

end
-- ==== Proof.KI_Run0A.lean ====
/-
  Kernel 0's body at a FIRST row tile (r = 0): the accumulator, found at anything, is zeroed and then
  receives the tile's column sums of squares; the output buffer is handed back untouched. The pieces the
  accumulator ends with are found by running the body.
-/
import proofs.«141915_j33500744909423_2_alg».proof.Proof.KI_Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI_Run0B.lean ====
/-
  Kernel 0's body at a MIDDLE row tile (0 < r < 15): the accumulator, found at what the point before
  left, receives the tile's column sums of squares on top; the output buffer is handed back untouched.
-/
import proofs.«141915_j33500744909423_2_alg».proof.Proof.KI_Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI_Run0C.lean ====
/-
  Kernel 0's body at a LAST row tile (r = 15): the accumulator receives the tile's column sums of squares
  on top of what the point before left, and its square root is stored into the output buffer.
-/
import proofs.«141915_j33500744909423_2_alg».proof.Proof.KI_Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__colnorm_kernel i arg2 harg2 arg3 harg3 arg4 harg4) K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI_Region0.lean ====
/-
  Kernel 0's region, for any float instance and any contents `V` of the buffers when the region is entered.

  What the accumulator and the output buffer hold after each grid point, by recursion on the point
  (t = 16·c + r): at r = 0 the first-tile case run on the point's input block; at 0 < r < 15 the
  middle-tile case run on the block and on what point t − 1 left in the accumulator; at r = 15 the
  last-tile case likewise, which also fills the output buffer. The region invariant carries the
  accumulator at exactly those contents from one point to the next (and the other kernel's scoped
  buffers at anything); with it every point's body meets its obligation.
-/
import proofs.«141915_j33500744909423_2_alg».proof.Proof.KI_Run0A
import proofs.«141915_j33500744909423_2_alg».proof.Proof.KI_Run0B
import proofs.«141915_j33500744909423_2_alg».proof.Proof.KI_Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) : Vec F S1x2048 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) (y : S1x2048.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x2048.size (by sl_kernel_rfl) y

def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S1024x2048 .f32) : Vec F S1x2048 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) : Vec F S1x2048 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) (y : S1x2048.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x2048.size (by sl_kernel_rfl) y

def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S1024x2048 .f32) (xs0 : Vec F S1x2048 .f32) : Vec F S1x2048 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) (y : S1x2048.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x2048.size (by sl_kernel_rfl) y

def out0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) : Vec F S1x2048 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) (y : S1x2048.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x2048.size (by sl_kernel_rfl) y

def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S1024x2048 .f32) (xs0 : Vec F S1x2048 .f32) : Vec F S1x2048 .f32 :=
  VS0_0.read (Elt F) (VS0_0.writes (Elt F) VS0_0.junk (kernelRun0_C c i arg2 harg2 arg3 harg3 arg4 harg4 hc0 hc1 x0 xs0).2.1)

/-! ## Point by point -/

/-- What the output buffer (first component) and the accumulator (second) hold after the body at position `n`. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 16 = 0 then
      if h1 : (n + 1) % 16 = 15 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other kernel's scoped buffers, each whole at anything: they ride along untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0_0 fullShare d) ∗ rest0 c) ∗ (∃ r, prngReg c r)) := PhiA0_eq c

/-- Before the first point every scoped buffer is at anything; before any later point the accumulator holds what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq']
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS_castSucc V c t, PhiS_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _)
            iexact Hr
          iexact Hg
        isplitl [Ho]; · iexact Ho
        isplitl [H0]; · iexact H0
        iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back at anything. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq']
  iintro ⟨⟨HS0, Hr⟩, Hg⟩
  isplitl [HS0 Hr]
  · isplitl [HS0]
    · iexists _; iexact HS0
    iexact Hr
  iexact Hg

end Cert.KernelIdeal.Hand

end
-- ==== Proof.KI_Run1.lean ====
/-
  Kernel 1's body at any point: the accumulator column, found at anything, is zeroed; four trips each add
  one chunk's row sums of the entropy terms; the output buffer, found at anything, receives 0 − accumulator.
  The counted loop is passed through by its invariant (the pieces of the trips so far), never unrolled.
-/
import proofs.«141915_j33500744909423_2_alg».proof.Proof.KI_Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) :
    { L2 : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc1__entropy_kernel i arg1 harg1 arg2 harg2 arg3 harg3 arg4 harg4) K } := by
  refine ⟨?_, fun E K => ?run⟩
  case run =>
    simp only [cc1__entropy_kernel_eq_skeleton]; unfold cc1__entropy_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexists _; isplitr
    swap; · iexact HS0
    ipureintro; rfl

end Cert.KernelIdeal.Hand

end
-- ==== Proof.KI_Region1.lean ====
/-
  Kernel 1's region, for any float instance and any contents `V` of the buffers when the region is entered.

  Every grid point is alike: the body finds its row block of the argument and the whole row of column
  norms in its input buffers, and leaves in the output buffer the pieces the body's run found (one
  store of 0 − accumulator). The accumulator is zeroed at every point, so the region invariant is the
  plain one (every scoped buffer at anything).
-/
import proofs.«141915_j33500744909423_2_alg».proof.Proof.KI_Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_2 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) (y : S512x1.Idx) :
    ∃ pc ∈ (kernelRun1 c i arg1 harg1 arg2 harg2 arg3 harg3 arg4 harg4 x0 x1).1, y ∈ pc.1.set :=
  View.cover_of_tiledL (kernelRun1 c i arg1 harg1 arg2 harg2 arg3 harg3 arg4 harg4 x0 x1).1 S512x1.size (by sl_kernel_rfl) y

/-- What the body leaves in the output buffer: its pieces read back. -/
def out1_2 (c : Dev nD) (i : grid1.Coords) (arg1 : Memref sig .tc .vmem S512x4096 .f32) (harg1 : arg1.IsWhole) (arg2 : Memref sig .tc .vmem S1x4096 .f32) (harg2 : arg2.IsWhole) (arg3 : Memref sig .tc .vmem S512x1 .f32) (harg3 : arg3.IsWhole) (arg4 : Memref sig .tc .vmem S512x1 .f32) (harg4 : arg4.IsWhole)
    (x0 : Vec F S512x4096 .f32) (x1 : Vec F S1x4096 .f32) : Vec F S512x1 .f32 :=
  VO1_2.read (Elt F) (VO1_2.writes (Elt F) VO1_2.junk (kernelRun1 c i arg1 harg1 arg2 harg2 arg3 harg3 arg4 harg4 x0 x1).1)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) scM1_0 (Memref.isWhole_whole _) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) scM1_0 (Memref.isWhole_whole _) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1 0 t], after1_0]
  rw [show (dat1 V c).leavesExact 1 t = owns (c : Thread nD τ) (ms1_1 t) fullShare ((dat1 V c).after 1 t) from by
    unfold Dat.leavesExact; rw [liveAt1 1 t], after1_1]
  rw [show (dat1 V c).leavesExact 2 t = owns (c : Thread nD τ) (ms1_2 t) fullShare ((dat1 V c).after 2 t) from by
    unfold Dat.leavesExact; rw [liveAt1 2 t], after1_2]
  unfold out1_2; (try dsimp only)
  iintro ⟨⟨⟨Ha, Hb, Hc, Hd, He, HS0⟩, Hg⟩, Ho, ⟨%d0, H0⟩, ⟨%d1, H1⟩, ⟨%d2, H2⟩⟩
  iapply ((kernelRun1 c (grid1.coords t) _ _ _ _ _ _ _ _ (iblk1 V c 0 t) (iblk1 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [Ha Hb Hc Hd He HS0 Hg]
  · isplitl [Ha Hb Hc Hd He HS0]
    · isplitl [Ha]; · iexact Ha
      isplitl [Hb]; · iexact Hb
      isplitl [Hc]; · iexact Hc
      isplitl [Hd]; · iexact Hd
      isplitl [He]; · iexact He
      iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Main.lean ====
/-
  The whole program's run, for any float instance: region 0, region 1, then four host operations.

  The buffers' contents at each boundary are a fold from the launch memory: at region 0's exit its two
  arrays hold what the pipeline's write-backs leave (the argument as entered, the column norms block by
  block) and every other buffer is as entered; likewise at region 1's exit; then the host operations'
  results. Each region is entered from "every unscoped buffer at the boundary's contents, the generator
  register at some state, nothing owed" and left at the same with the next contents. Every weakly fair
  execution ends with every unscoped buffer at the last contents; the argument array's entry in that
  fold walks back to the launch memory.
-/
import proofs.«141915_j33500744909423_2_alg».proof.Proof.KI_Region0
import proofs.«141915_j33500744909423_2_alg».proof.Proof.KI_Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev Wa : Dev nD → Valuation τ sig (Elt F) := fun c b => m ((c : Dev nD), b)
abbrev Va : (c : Dev nD) → (b : Ref sig .tc) → Buf (Elt F) ((c : Thread nD τ).loc b) := fun c b => Wa m c b
/-- At region 0's exit (region 1's entry). -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- At region 1's exit. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)
/-- After the host operations (the end). -/
abbrev Wd : Dev nD → Valuation τ sig (Elt F) := fun c => StableHlo.after hostOps2 (Wc m c)

/-- The argument ends as launched: no host operation writes it and each region only reads it. -/
theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb m c (Proc.devRef .tc main_arg0) := (Wc_arr m c 0).trans (((dat1 (Vb m) c).arrAt_in 0 rfl _).trans (A_eq1 (Vb m) c 0))
    _ = Wa m c (Proc.devRef .tc main_arg0) := (Wb_arr m c 0).trans (((dat0 (Va m) c).arrAt_in 0 rfl _).trans (A_eq0 (Va m) c 0))
    _ = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
abbrev Tₙ (c : Dev nD) : sProp 𝕄 := iprop(StableHlo.held (c : Thread nD τ) (Pipeline.ucRefs τ sig) (Wd m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (Va m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (Wc m)) ]
theorem main_run (c : Dev nD) : main (F := F) c = Pipeline.Seg.run (segs m) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun c => by
      show iprop(StableHlo.held (c : Thread nD τ) (Pipeline.ucRefs τ sig) (Wd m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (Wd_main_arg0 m c)) (run_all m ρ)

end Cert.KernelIdeal.Hand

end
-- ==== Proof.Spec.lean ====
/-
  The function both programs compute, on the extended reals, entry by entry.

  For an array x of 16384 rows and 4096 columns:
    the column norm       n(c)  = max (sqrt (Σ_r x(r,c)²), ε₁),
    the normalised entry  p(r,c) = x(r,c) / n(c),
    a row's entropy       e(r)  = -(Σ_c p(r,c) · log (p(r,c) + ε₂)),
    the result            (Σ_r e(r)) / 16384,
  with ε₁, ε₂ and 16384 the f32 patterns both programs share (never evaluated: the same
  word stands on both sides).
-/
import Idealize.ShloMosaic.PureOps.Ideal
import Idealize.ShloMosaic.Lib.ValueIdx

noncomputable section

open scoped BigOperators

namespace Cert.Entropy

open Idealize.ShloMosaic Idealize.ShloMosaic.ValueIdx

/-- The argument array's shape. -/
abbrev SX : Shape := ⟨2, ![16384, 4096]⟩

/-- The floor under a column norm (the f32 nearest 1e-12). -/
def epsNorm : EReal := Ideal.ofBits .f32 0x2B8CBCCC#32
/-- The shift inside the logarithm (the f32 nearest 1e-8). -/
def epsLog : EReal := Ideal.ofBits .f32 0x322BCC77#32
/-- The number of rows, 16384, as the f32 both programs divide by. -/
def rowCount : EReal := Ideal.ofBits .f32 0x46800000#32

/-- Σ_r x(r,c)². -/
def sqSum (x : SX.Idx → EReal) (c : Fin 4096) : EReal := ∑ r : Fin 16384, x (ix2 r c) * x (ix2 r c)
/-- max (sqrt (Σ_r x(r,c)²), ε₁). -/
def colNorm (x : SX.Idx → EReal) (c : Fin 4096) : EReal := max (Ideal.sqrt (sqSum x c)) epsNorm
/-- x(r,c) / n(c). -/
def prob (x : SX.Idx → EReal) (r : Fin 16384) (c : Fin 4096) : EReal := Ideal.div (x (ix2 r c)) (colNorm x c)
/-- One entry's entropy term, written for any normaliser `n`: (v/n) · log (v/n + ε₂). -/
def termOf (v n : EReal) : EReal := Ideal.div v n * Ideal.log (Ideal.div v n + epsLog)
/-- p(r,c) · log (p(r,c) + ε₂). -/
def term (x : SX.Idx → EReal) (r : Fin 16384) (c : Fin 4096) : EReal := termOf (x (ix2 r c)) (colNorm x c)
/-- -(Σ_c p(r,c) · log (p(r,c) + ε₂)). -/
def rowEnt (x : SX.Idx → EReal) (r : Fin 16384) : EReal := -∑ c : Fin 4096, term x r c
/-- The mean of the rows' entropies, as a rank-0 array. -/
def meanEnt (x : SX.Idx → EReal) : (⟨0, ![]⟩ : Shape).Idx → EReal :=
  fun _ => Ideal.div (∑ r : Fin 16384, rowEnt x r) rowCount

end Cert.Entropy

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payloads.lean ====
/-
  The kernel's six stored values read entry by entry, on the extended reals.

  First kernel (column norms): the accumulator starts at 0; a step adds to the accumulator's entry of
  column c the sum over the block's 1024 rows of the squares of the block's entries in column c; the
  last step stores the square root of the accumulator's entry.
  Second kernel (row entropies): the accumulator starts at 0; a step adds to the accumulator's entry
  of row r the sum over a chunk's 1024 columns of the entropy terms (v/n) · log (v/n + ε₂) with
  n = max (norm, ε₁); the last step stores 0 − accumulator = −accumulator.
-/
import proofs.«141915_j33500744909423_2_alg».proof.Proof.Spec
import proofs.«141915_j33500744909423_2_alg».proof.Proof.Gen.KernelIdeal.Skeleton
import proofs.«141915_j33500744909423_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Entropy.Pay

open Idealize.ShloMosaic Idealize.ShloMosaic.ValueIdx Cert.KernelIdeal Cert.KernelIdeal.Gen

/-! ## The two lane sums read at an index -/

/-- A sum over the rows of a [1024, 2048] array, read at column c, is the sum over the 1024 rows of
    the array's entries in column c. -/
theorem sumRows_apply (src : FVec Ideal S1024x2048 .f32) (h : S1024x2048.Reduces [0] S2048) (hφ : FKind.Formats .f32)
    (hacc : (0x00000000#32 : BitVec 32) = 0x00000000#32) (c : Fin 2048) :
    multiReduction .add [0] S2048 src 0x00000000#32 h hφ hacc (ix1 c) = ∑ i : Fin 1024, src (ix2 i c) := by
  refine (Ideal.multiReduction_add_single src 0x00000000#32 h hφ hacc (ix1 c)).trans ?_
  refine Finset.sum_congr rfl fun i _ => congrArg src ?_
  funext a
  refine Fin.ext ?_
  match a with
  | ⟨0, _⟩ => rfl
  | ⟨1, _⟩ => rfl

/-- A sum over the columns of a [512, 1024] array, read at row r, is the sum over the 1024 columns of
    the array's entries in row r. -/
theorem sumCols_apply (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext a
  refine Fin.ext ?_
  match a with
  | ⟨0, _⟩ => rfl
  | ⟨1, _⟩ => rfl

/-! ## The first kernel's stored values -/

/-- The accumulator's first value: 0 in every column. -/
theorem pay01 (c : Fin 2048) : k0_pay1 (F := Ideal) (ix2 (0 : Fin 1) c) = 0 := by
  unfold k0_pay1
  rw [shapeCast_self]
  exact Ideal.ofBits_zero_f32

/-- A step's value in column c: the accumulator's entry plus the sum over the block's rows of the squares of the
    block's entries in that column. -/
theorem pay02 (v3 : Vec Ideal S1024x2048 .f32) (v4 : Vec Ideal S1x2048 .f32) (c : Fin 2048) :
    k0_pay2 (F := Ideal) v3 v4 (ix2 (0 : Fin 1) c) = v4 (ix2 0 c) + ∑ i : Fin 1024, v3 (ix2 i c) * v3 (ix2 i c) := by
  unfold k0_pay2
  rw [shapeCast_self]
  refine (addf_apply _ _ _).trans ?_
  refine congrArg (v4 (ix2 0 c) + ·) ?_
  refine (shapeCast_a_1a_apply _ _ 0 c).trans ?_
  exact sumRows_apply _ _ _ _ c

/-- The last step's value in column c: the square root of the accumulator's entry. -/
theorem pay03 (v15 : Vec Ideal S1x2048 .f32) (c : Fin 2048) :
    k0_pay3 (F := Ideal) v15 (ix2 (0 : Fin 1) c) = Ideal.sqrt (v15 (ix2 0 c)) := rfl

/-! ## The second kernel's stored values -/

/-- One entry of a chunk's entropy terms: with the norms' row w spread over the 512 rows, the entry (r, k) of
    (v / w) · log (v / w + ε₂) is the entropy term of v(r, k) with normaliser w(k). -/
theorem term_apply (v : FVec Ideal S512x1024 .f32) (w : FVec Ideal S1x1024 .f32) (h : S1x1024.Broadcasts S512x1024)
    (r : Fin 512) (k : Fin 1024) :
    mulf (divf v (broadcastTo S512x1024 w h))
        (log (addf (divf v (broadcastTo S512x1024 w h)) (broadcast S512x1024 (Scalar.ofBits (F := Ideal) .f32 0x322BCC77#32))))
        (ix2 r k)
      = Cert.Entropy.termOf (v (ix2 r k)) (w (ix2 (0 : Fin 1) k)) := by
  show Ideal.div (v (ix2 r k)) (broadcastTo S512x1024 w h (ix2 r k))
      * Ideal.log (Ideal.div (v (ix2 r k)) (broadcastTo S512x1024 w h (ix2 r k)) + Cert.Entropy.epsLog) = _
  rw [broadcastTo_1b_ab_apply]
  rfl

/-- The accumulator's first value: 0 in every row. -/
theorem pay11 (r : Fin 512) : k1_pay1 (F := Ideal) (ix2 r (0 : Fin 1)) = 0 := by
  unfold k1_pay1
  rw [shapeCast_self]
  exact Ideal.ofBits_zero_f32

/-- A step's value in row r: the accumulator's entry plus the sum over the chunk's 1024 columns of the entropy terms
    of the row's entries, each normalised by max (its column's norm, ε₁). -/
theorem pay12 (v12 : Vec Ideal S512x1024 .f32) (v14 : Vec Ideal S1x1024 .f32) (v24 : Vec Ideal S512x1 .f32) (r : Fin 512) :
    k1_pay2 (F := Ideal) v12 v14 v24 (ix2 r (0 : Fin 1))
      = v24 (ix2 r 0) + ∑ k : Fin 1024, Cert.Entropy.termOf (v12 (ix2 r k)) (max (v14 (ix2 (0 : Fin 1) k)) Cert.Entropy.epsNorm) := by
  unfold k1_pay2
  rw [shapeCast_self, shapeCast_self]
  refine (addf_apply _ _ _).trans ?_
  refine congrArg (v24 (ix2 r 0) + ·) ?_
  refine (Cert.LibKeepdims.shapeCast_a_a1_apply _ _ r 0).trans ?_
  refine (sumCols_apply _ _ _ _ r).trans ?_
  exact Finset.sum_congr rfl fun k _ => term_apply v12 _ _ r k

/-- The last step's value in row r: 0 − accumulator, the accumulator's entry negated. -/
theorem pay13 (v5 : Vec Ideal S512x1 .f32) (r : Fin 512) :
    k1_pay3 (F := Ideal) v5 (ix2 r (0 : Fin 1)) = -(v5 (ix2 r 0)) := by
  unfold k1_pay3
  refine (subf_apply _ _ _).trans ?_
  show Ideal.ofBits .f32 0x00000000#32 - v5 (ix2 r 0) = _
  rw [Ideal.ofBits_zero_f32, zero_sub]

end Cert.Entropy.Pay

end
-- ==== Proof.SumLaws.lean ====
/-
  Sums taken a tile at a time.

  A sum of T·J terms can be accumulated in J steps, each adding the sum of the next T consecutive
  terms; and a sum over the indices of an [n, 1] array is the sum over its n rows.
-/
import Mathlib.Algebra.BigOperators.Fin
import Mathlib.Algebra.BigOperators.Intervals
import Mathlib.Data.EReal.Basic
import Idealize.ShloMosaic.Lib.ValueIdx

noncomputable section

open scoped BigOperators

namespace Cert.Entropy

open Idealize.ShloMosaic Idealize.ShloMosaic.ValueIdx

section Monoid

variable {M : Type*} [AddCommMonoid M]

/-- The accumulator after `k` tiles of `T` consecutive terms of `g`: it starts at `0`, and tile `k` adds
    `g (T·k) + … + g (T·k + T - 1)`. -/
def accTiles (T : ℕ) (g : ℕ → M) : ℕ → M
  | 0 => 0
  | k + 1 => accTiles T g k + ∑ i : Fin T, g (T * k + i.val)

@[simp] theorem accTiles_zero (T : ℕ) (g : ℕ → M) : accTiles T g 0 = 0 := rfl

theorem accTiles_succ (T : ℕ) (g : ℕ → M) (k : ℕ) :
    accTiles T g (k + 1) = accTiles T g k + ∑ i : Fin T, g (T * k + i.val) := rfl

/-- After `J` tiles the accumulator is the sum of the first `T·J` terms. -/
theorem accTiles_eq (T J : ℕ) (g : ℕ → M) : accTiles T g J = ∑ n : Fin (T * J), g n.val := by
  induction J with
  | zero => simp
  | succ J ih =>
    rw [accTiles_succ, ih, Fin.sum_univ_eq_sum_range (fun n => g n) (T * J),
      Fin.sum_univ_eq_sum_range (fun n => g n) (T * (J + 1)),
      Fin.sum_univ_eq_sum_range (fun i => g (T * J + i)) T, Nat.mul_succ, Finset.sum_range_add]

/-- A function on `Fin N` continued by `0` past `N`. -/
def extend {N : ℕ} (f : Fin N → M) : ℕ → M := fun n => if h : n < N then f ⟨n, h⟩ else 0

theorem extend_of_lt {N : ℕ} (f : Fin N → M) {n : ℕ} (h : n < N) : extend f n = f ⟨n, h⟩ := dif_pos h

theorem extend_val {N : ℕ} (f : Fin N → M) (n : Fin N) : extend f n.val = f n := extend_of_lt f n.isLt

/-- A sum over `Fin (T·J)` is the accumulator after `J` tiles of the continued function. -/
theorem sum_eq_accTiles (T J : ℕ) (f : Fin (T * J) → M) : ∑ n, f n = accTiles T (extend f) J := by
  rw [accTiles_eq]
  exact Finset.sum_congr rfl fun n _ => (extend_val f n).symm

/-- Tile `k < J` of the continued function, with its terms read off the original one. -/
theorem tile_extend (T J : ℕ) (f : Fin (T * J) → M) (k : ℕ) (hk : k < J) :
    ∑ i : Fin T, extend f (T * k + i.val)
      = ∑ i : Fin T, f ⟨T * k + i.val, by
          calc T * k + i.val < T * k + T := Nat.add_lt_add_left i.isLt _
            _ = T * (k + 1) := (Nat.mul_succ T k).symm
            _ ≤ T * J := Nat.mul_le_mul_left T hk⟩ :=
  Finset.sum_congr rfl fun i _ => extend_of_lt f _

end Monoid

/-! ### The two sizes at hand: 16384 = 1024 · 16 rows and 4096 = 1024 · 4 columns -/

/-- A sum over the 16384 rows, accumulated in 16 tiles of 1024 rows. -/
theorem sum_rows (f : Fin 16384 → EReal) : ∑ r, f r = accTiles 1024 (extend f) 16 :=
  sum_eq_accTiles 1024 16 f

/-- Row tile `k < 16`, in terms of the function on `Fin 16384`. -/
theorem tile_rows (f : Fin 16384 → EReal) (k : ℕ) (hk : k < 16) :
    ∑ i : Fin 1024, extend f (1024 * k + i.val) = ∑ i : Fin 1024, f ⟨1024 * k + i.val, by omega⟩ :=
  Finset.sum_congr rfl fun i _ => extend_of_lt f _

/-- A sum over the 4096 columns, accumulated in 4 tiles of 1024 columns. -/
theorem sum_cols (h : Fin 4096 → EReal) : ∑ c, h c = accTiles 1024 (extend h) 4 :=
  sum_eq_accTiles 1024 4 h

/-- Column tile `k < 4`, in terms of the function on `Fin 4096`. -/
theorem tile_cols (h : Fin 4096 → EReal) (k : ℕ) (hk : k < 4) :
    ∑ i : Fin 1024, extend h (1024 * k + i.val) = ∑ i : Fin 1024, h ⟨1024 * k + i.val, by omega⟩ :=
  Finset.sum_congr rfl fun i _ => extend_of_lt h _

/-- A sum over the indices of a 16384 × 1 array is the sum over its rows. -/
theorem sum_col (g : (⟨2, ![16384, 1]⟩ : Shape).Idx → EReal) : ∑ i, g i = ∑ r : Fin 16384, g (ix2 r 0) := by
  rw [sum_idx2]
  exact Finset.sum_congr rfl fun r _ => Fin.sum_univ_one _

/-- Subtracting from zero is negation. -/
theorem zero_sub' (a : EReal) : (0 : EReal) - a = -a := by
  rw [sub_eq_add_neg, zero_add]

end Cert.Entropy

end
-- ==== Proof.KI_Value0.lean ====
/-
  What kernel 0 leaves in the column-norm array, on the extended reals: at column j the square root of the
  sum over all 16384 rows of the squares of the argument's entries in column j.

  The grid point t = 16·h + r handles row tile r of column half h. The accumulator after point t holds, at
  column j' of the half, the sum of the squares over the first r + 1 row tiles; the last row tile's point
  stores the square root of the full sum into the output block, which is written back to columns
  2048·h … 2048·h + 2047 of the array.
-/
import proofs.«141915_j33500744909423_2_alg».proof.Proof.KI_Region0
import proofs.«141915_j33500744909423_2_alg».proof.Proof.Payloads
import proofs.«141915_j33500744909423_2_alg».proof.Proof.SumLaws
import proofs.«141915_j33500744909423_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Entropy Cert.Entropy.Pay

section Pieces
variable {F : FTy → Type} [FloatOps F]

/-- The zero offsets, as a constant function. -/
theorem zeroOff0 : (![0, 0] : Fin 2 → Nat) = fun _ => 0 := funext fun a => by fin_cases a <;> rfl

/-- A middle row tile leaves in the accumulator the step's value of the block and of what the accumulator held. -/
theorem sout0_B_eq (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048 .f32) (h4 : a4.IsWhole) (hc0 : ¬cond0_0 i) (hc1 : ¬cond0_1 i)
    (x0 : Vec F S1024x2048 .f32) (xs0 : Vec F S1x2048 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero zeroOff0]
  simp only [View.readAt_eq_ld, h2.read_unread, h4.read_unread, View.ld_unit_zero (S := S1024x2048) zeroOff0,
    View.ld_unit_zero (S := S1x2048) zeroOff0]

/-- The first row tile leaves in the accumulator the step's value of the block and of the zero row. -/
theorem sout0_A_eq (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048 .f32) (h4 : a4.IsWhole) (hc0 : cond0_0 i) (hc1 : ¬cond0_1 i)
    (x0 : Vec F S1024x2048 .f32) :
    sout0_A_0 c i a2 h2 a3 h3 a4 h4 hc0 hc1 x0 = k0_pay2 x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x2048) zeroOff0, View.readCov_unit_zero (S := S1x2048) _ zeroOff0]
  simp only [View.readAt_eq_ld, h2.read_unread, View.ld_unit_zero (S := S1024x2048) zeroOff0]

/-- The last row tile leaves in the accumulator the step's value of the block and of what the accumulator held. -/
theorem sout0_C_eq (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048 .f32) (h4 : a4.IsWhole) (hc0 : ¬cond0_0 i) (hc1 : cond0_1 i)
    (x0 : Vec F S1024x2048 .f32) (xs0 : Vec F S1x2048 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero zeroOff0]
  simp only [View.readAt_eq_ld, h2.read_unread, h4.read_unread, View.ld_unit_zero (S := S1024x2048) zeroOff0,
    View.ld_unit_zero (S := S1x2048) zeroOff0]

/-- The last row tile leaves in the output block the square roots of that step's value. -/
theorem out0_C_eq (c : Dev nD) (i : grid0.Coords) (a2 : Memref sig .tc .vmem S1024x2048 .f32) (h2 : a2.IsWhole) (a3 : Memref sig .tc .vmem S1x2048 .f32) (h3 : a3.IsWhole) (a4 : Memref sig .tc .vmem S1x2048 .f32) (h4 : a4.IsWhole) (hc0 : ¬cond0_0 i) (hc1 : cond0_1 i)
    (x0 : Vec F S1024x2048 .f32) (xs0 : Vec F S1x2048 .f32) :
    out0_C_1 c i a2 h2 a3 h3 a4 h4 hc0 hc1 x0 xs0 = k0_pay3 (k0_pay2 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero zeroOff0, View.readCov_unit_zero (S := S1x2048) _ zeroOff0]
  simp only [View.readAt_eq_ld, h2.read_unread, h4.read_unread, View.ld_unit_zero (S := S1024x2048) zeroOff0,
    View.ld_unit_zero (S := S1x2048) zeroOff0]

end Pieces

/-! ## Point by point, for any float instance: the accumulator's recurrence -/

section Recurrence
variable {F : FTy → Type} [FloatOps F]
variable (V : (c : Dev nD) → (b : Ref sig .tc) → Buf (Elt F) ((c : Thread nD τ).loc b))

/-- A grid point's number is below 32. -/
theorem pt0_lt (t : Fin cfg0.N) : t.val < 32 := lt_of_lt_of_eq t.isLt (show cfg0.N = 32 from N_0)

/-- After a first row tile the accumulator holds the step's value of the point's block and of the zero row. -/
theorem acc0_first (c : Dev nD) (t : Fin cfg0.N) (h0 : t.val % 16 = 0) :
    (outsAt0 V c t.val t.isLt).2 = k0_pay2 (iblk0 V c 0 t) (k0_pay1 (F := F)) := by
  have h1 : ¬t.val % 16 = 15 := by omega
  have e := sout0_A_eq c (grid0.coords t) (ms0_0 t) (hs0_0 t) (ms0_1 t) (hs0_1 t) scM0_0 (Memref.isWhole_whole _)
    ((hcond0_0 t).mpr h0) (fun h => h1 ((hcond0_1 t).mp h)) (iblk0 V c 0 t)
  rw [outsAt0_A V c t h0 h1]
  dsimp only
  exact e

/-- After any later row tile it holds the step's value of the point's block and of what the point before left. -/
theorem acc0_later (c : Dev nD) (t : Fin cfg0.N) (h0 : ¬t.val % 16 = 0) :
    (outsAt0 V c t.val t.isLt).2
      = k0_pay2 (iblk0 V c 0 t) (outsAt0 V c (t.val - 1) (Nat.lt_of_le_of_lt (Nat.sub_le _ _) t.isLt)).2 := by
  by_cases h1 : t.val % 16 = 15
  · have e := sout0_C_eq c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2
    rw [outsAt0_C V c t h0 h1]
    dsimp only
    exact e
  · have e := sout0_B_eq c (grid0.coords t) (ms0_0 t) (hs0_0 t) (ms0_1 t) (hs0_1 t) scM0_0 (Memref.isWhole_whole _)
      (fun h => h0 ((hcond0_0 t).mp h)) (fun h => h1 ((hcond0_1 t).mp h)) (iblk0 V c 0 t)
      (outsAt0 V c (t.val - 1) (Nat.lt_of_le_of_lt (Nat.sub_le _ _) t.isLt)).2
    rw [outsAt0_B V c t h0 h1]
    dsimp only
    exact e

/-- After a last row tile the output block holds the square roots of what the accumulator then holds. -/
theorem out0_last (c : Dev nD) (t : Fin cfg0.N) (h1 : t.val % 16 = 15) :
    (outsAt0 V c t.val t.isLt).1 = k0_pay3 (outsAt0 V c t.val t.isLt).2 := by
  have h0 : ¬t.val % 16 = 0 := by omega
  have e := out0_C_eq c (grid0.coords t) (ms0_0 t) (hs0_0 t) (ms0_1 t) (hs0_1 t) scM0_0 (Memref.isWhole_whole _)
    (fun h => h0 ((hcond0_0 t).mp h)) ((hcond0_1 t).mpr h1) (iblk0 V c 0 t)
    (outsAt0 V c (t.val - 1) (Nat.lt_of_le_of_lt (Nat.sub_le _ _) t.isLt)).2
  rw [acc0_later V c t h0]
  rw [outsAt0_C V c t h0 h1]
  dsimp only
  exact e

end Recurrence

/-! ## On the extended reals -/

section Value
variable (V : (c : Dev nD) → (b : Ref sig .tc) → Buf (Elt Ideal) ((c : Thread nD τ).loc b))

/-- The squares of the entries of column `col`, row by row. -/
def sqOf (x : SX.Idx → EReal) (col : Fin 4096) : Fin 16384 → EReal := fun n => x (ix2 n col) * x (ix2 n col)

/-- The array's column that column j' of point t's blocks is: 2048·(column half) + j'. -/
def colAt0 (t : Fin cfg0.N) (j' : Fin 2048) : Fin 4096 := ⟨2048 * (t.val / 16) + j'.val, by have := pt0_lt t; omega⟩

/-- The input window's block index at the point t = 16·h + r is (r, h). -/
theorem idx0_0 : ∀ t : Fin cfg0.N, win0_0.index t (0 : Fin 2) = t.val % 16 ∧ win0_0.index t (1 : Fin 2) = t.val / 16 :=
  (by decide +kernel : ∀ t : Fin grid0.N, win0_0.index t (0 : Fin 2) = t.val % 16 ∧ win0_0.index t (1 : Fin 2) = t.val / 16)
/-- The output window's block index at the point t = 16·h + r is (0, h). -/
theorem idx0_1 : ∀ t : Fin cfg0.N, win0_1.index t (0 : Fin 2) = 0 ∧ win0_1.index t (1 : Fin 2) = t.val / 16 :=
  (by decide +kernel : ∀ t : Fin grid0.N, win0_1.index t (0 : Fin 2) = 0 ∧ win0_1.index t (1 : Fin 2) = t.val / 16)
/-- The output window's block at every point is a whole 1 × 2048 row. -/
theorem xsize0_1 : ∀ t : Fin cfg0.N, win0_1.xsize (grid0.coords t) (0 : Fin 2) = 1 ∧ win0_1.xsize (grid0.coords t) (1 : Fin 2) = 2048 :=
  (by decide +kernel : ∀ t : Fin grid0.N, win0_1.xsize (grid0.coords t) (0 : Fin 2) = 1 ∧ win0_1.xsize (grid0.coords t) (1 : Fin 2) = 2048)

/-- The input block at point t, entry (i, j'), is the argument's entry in row 1024·r + i and column 2048·h + j'. -/
theorem iblk0_apply (c : Dev nD) (t : Fin cfg0.N) (i : Fin 1024) (j' : Fin 2048) :
    (iblk0 V c 0 t : Vec Ideal S1024x2048 .f32) (ix2 i j')
      = (V c main_arg0 : SX.Idx → EReal) (ix2 ⟨1024 * (t.val % 16) + i.val, by omega⟩ (colAt0 t j')) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 1024 + 1 * i.val = 1024 * (t.val % 16) + i.val; rw [e0]; omega
  | ⟨1, _⟩ => show win0_0.index t 1 * 2048 + 1 * j'.val = 2048 * (t.val / 16) + j'.val; rw [e1]; omega

/-- One step at column j', for a block `b` that is row tile k of the array in column `col`: the accumulator's entry plus
    tile k of the column's squares. -/
theorem step0_of (x : SX.Idx → EReal) (k : ℕ) (hk : k < 16) (col : Fin 4096) (b : Vec Ideal S1024x2048 .f32)
    (p : Vec Ideal S1x2048 .f32) (j' : Fin 2048)
    (hb : ∀ i : Fin 1024, b (ix2 i j') = x (ix2 ⟨1024 * k + i.val, by omega⟩ col)) :
    k0_pay2 (F := Ideal) b p (ix2 (0 : Fin 1) j')
      = p (ix2 0 j') + ∑ i : Fin 1024, extend (sqOf x col) (1024 * k + i.val) := by
  refine (pay02 b p j').trans ?_
  refine congrArg (p (ix2 0 j') + ·) ?_
  refine (Finset.sum_congr rfl fun i _ => ?_).trans (tile_rows (sqOf x col) k hk).symm
  show b (ix2 i j') * b (ix2 i j') = x (ix2 ⟨1024 * k + i.val, _⟩ col) * x (ix2 ⟨1024 * k + i.val, _⟩ col)
  rw [hb i]

/-- THE ACCUMULATOR after point n = 16·h + r, at column j' of the half: the sum of the squares of the array's column
    2048·h + j' over the first r + 1 row tiles. By induction on the point. -/
theorem acc0_eq (c : Dev nD) (n : ℕ) : ∀ (hn : n < cfg0.N) (j' : Fin 2048),
    (outsAt0 V c n hn).2 (ix2 (0 : Fin 1) j')
      = accTiles 1024 (extend (sqOf (V c main_arg0) (colAt0 ⟨n, hn⟩ j'))) (n % 16 + 1) := by
  induction n using Nat.strong_induction_on with
  | _ n ih =>
    intro hn j'
    have hN : n < 32 := pt0_lt ⟨n, hn⟩
    by_cases h0 : n % 16 = 0
    · refine (congrFun (acc0_first V c ⟨n, hn⟩ h0) (ix2 0 j')).trans ?_
      refine (step0_of (V c main_arg0) (n % 16) (by omega) (colAt0 ⟨n, hn⟩ j') (iblk0 V c 0 ⟨n, hn⟩) (k0_pay1 (F := Ideal)) j'
        (fun i => iblk0_apply V c ⟨n, hn⟩ i j')).trans ?_
      rw [pay01 j', h0, accTiles_succ, accTiles_zero]
    · have hp : n - 1 < cfg0.N := Nat.lt_of_le_of_lt (Nat.sub_le _ _) hn
      refine (congrFun (acc0_later V c ⟨n, hn⟩ h0) (ix2 0 j')).trans ?_
      refine (step0_of (V c main_arg0) (n % 16) (by omega) (colAt0 ⟨n, hn⟩ j') (iblk0 V c 0 ⟨n, hn⟩)
        (outsAt0 V c (n - 1) hp).2 j' (fun i => iblk0_apply V c ⟨n, hn⟩ i j')).trans ?_
      have hcol : colAt0 ⟨n - 1, hp⟩ j' = colAt0 ⟨n, hn⟩ j' :=
        Fin.ext (by show 2048 * ((n - 1) / 16) + j'.val = 2048 * (n / 16) + j'.val; omega)
      have hk : (n - 1) % 16 + 1 = n % 16 := by omega
      rw [ih (n - 1) (by omega) hp j', hcol, hk, accTiles_succ]

/-- THE OUTPUT BLOCK after a last row tile's point t = 16·h + 15, at column k₁: the square root of the sum of the squares
    of all of the array's column 2048·h + k₁. -/
theorem out0_at (c : Dev nD) (t : Fin cfg0.N) (h15 : t.val % 16 = 15) (k : S1x2048.Idx) :
    (outsAt0 V c t.val t.isLt).1 k
      = Ideal.sqrt (sqSum (V c main_arg0) ⟨2048 * (t.val / 16) + (k 1).val, by have := pt0_lt t; have := idx2_lt1 k; omega⟩) := by
  obtain ⟨p, q, rfl⟩ : ∃ (p : Fin 1) (q : Fin 2048), k = ix2 p q := ⟨k 0, k 1, eq_ix2 k⟩
  obtain rfl : p = 0 := Subsingleton.elim _ _
  rw [out0_last V c t h15]
  refine (pay03 (outsAt0 V c t.val t.isLt).2 q).trans (congrArg Ideal.sqrt ?_)
  refine (acc0_eq V c t.val t.isLt q).trans ?_
  rw [h15]
  exact (sum_rows (sqOf (V c main_arg0) (colAt0 t q))).symm

/-- What the column-norm array ends holding, as a function of the index. -/
def normsOf (x : SX.Idx → EReal) : (⟨2, ![1, 4096]⟩ : Shape).Idx → EReal :=
  fun i => Ideal.sqrt (sqSum x ⟨(i 1).val, idx2_lt1 i⟩)

set_option maxRecDepth 65536 in
/-- What a last row tile's point writes back is its block of that function. -/
theorem flushed0_eq (c : Dev nD) (t : Fin cfg0.N) (hf : (cfg0.win 1).flush t = true) :
    (dat0 V c).flushed 1 t = ((cfg0.win 1).blk t).view.read (Elt Ideal) (normsOf (V c main_arg0)) := by
  have h15 : t.val % 16 = 15 := (flush0_1 t).mp hf
  obtain ⟨e0, e1⟩ := idx0_1 t
  show (cfg0.win 1).cut (grid0.coords t) ((dat0 V c).after 1 t) = _
  rw [after0_1]
  funext y
  show (outsAt0 V c t.val t.isLt).1 ((cfg0.win 1).xinj (grid0.coords t) y)
    = normsOf (V c main_arg0) (((cfg0.win 1).blk t).view.emb y)
  refine (out0_at V c t h15 _).trans ?_
  unfold normsOf
  refine congrArg Ideal.sqrt (congrArg (sqSum (V c main_arg0)) (Fin.ext ?_))
  show 2048 * (t.val / 16) + (y 1).val = win0_1.index t 1 * 2048 + 1 * (y 1).val
  rw [e1]; omega

/-- THE COLUMN-NORM ARRAY after the region: at column j the square root of the sum over all rows of the squares of the
    argument's entries in column j. The point that writes column j back is 16·(j / 2048) + 15. -/
theorem colnorm_array (c : Dev nD) (j : Fin 4096) :
    ((dat0 (F := Ideal) V c).arrAt 1 cfg0.N (ix2 (0 : Fin 1) j) : EReal)
      = Ideal.sqrt (Cert.Entropy.sqSum (V c main_arg0) j) := by
  have hj := j.isLt
  obtain ⟨t, ht⟩ : ∃ t : Fin cfg0.N, t.val = 16 * (j.val / 2048) + 15 :=
    ⟨⟨16 * (j.val / 2048) + 15, by rw [show cfg0.N = 32 from N_0]; omega⟩, rfl⟩
  have hf : (cfg0.win 1).flush t = true := (flush0_1 t).mpr (by omega)
  obtain ⟨e0, e1⟩ := idx0_1 t
  obtain ⟨s0, s1⟩ := xsize0_1 t
  refine ((dat0 V c).arrAt_apply_of_mem 1 (normsOf (V c main_arg0)) (flushed0_eq V c) cfg0.N t (ix2 (0 : Fin 1) j) t.isLt hf ?_).trans rfl
  show ix2 (0 : Fin 1) j ∈ ((View.whole main_v0).slice (win0_1.rect t)).set
  rw [View.set_slice_whole, Rect.mem_set_unit]
  intro a
  match a with
  | ⟨0, _⟩ =>
    show win0_1.index t 0 * 1 ≤ 0 ∧ 0 < win0_1.index t 0 * 1 + win0_1.xsize (grid0.coords t) 0
    rw [e0, s0]; omega
  | ⟨1, _⟩ =>
    show win0_1.index t 1 * 2048 ≤ j.val ∧ j.val < win0_1.index t 1 * 2048 + win0_1.xsize (grid0.coords t) 1
    rw [e1, s1]; omega

end Value

end Cert.KernelIdeal.Hand

end
-- ==== Proof.KI_Value1.lean ====
/-
  What the second kernel leaves in the array of row entropies, on the extended reals.

  At a grid point the body finds a block of 512 rows of the argument and the whole row of column norms. Its
  accumulator column is zeroed, then four steps each add, in every row, the entropy terms
  (v/n) · log (v/n + ε₂), n = max (norm, ε₁), of one chunk of 1024 columns; the output block receives
  0 − accumulator. So after the steps the accumulator's entry of a row is the sum of the row's 4096 terms taken
  a chunk at a time, which is their plain sum, and the block's entry is minus that sum. Point t's block is rows
  512·t … 512·t + 511 of the result array, the blocks cover it, and each is written back once; hence the array's
  row r ends at minus the sum of row r's terms.
-/
import proofs.«141915_j33500744909423_2_alg».proof.Proof.KI_Region1
import proofs.«141915_j33500744909423_2_alg».proof.Proof.Payloads
import proofs.«141915_j33500744909423_2_alg».proof.Proof.SumLaws
import proofs.«141915_j33500744909423_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Entropy Cert.Entropy.Pay

/-! ## The body's run read back, for any float values -/

variable {F : FTy → Type} [FloatOps F]

theorem zero_off1 : (![0, 0] : Fin 2 → Nat) = fun _ => 0 := funext fun a => by fin_cases a <;> rfl

/-- The piece the accumulator is zeroed with. -/
abbrev zeroPiece1 : View.Piece (Elt F) S512x1 .f32 := ⟨Rect.unit ![0, 0] S512x1.size inb_S512x1_S512x1_0_0, k1_pay1⟩

/-- A column buffer whose last store covered it reads that store's value back, whatever came before. -/
theorem read_cons_whole1 (a4 : Memref sig .tc .vmem S512x1 .f32) (f : BufTy.Contents (Elt F) a4.view.ty)
    (w : S512x1.Idx → Elt F .f32) (L : List (View.Piece (Elt F) S512x1 .f32)) :
    a4.view.read (Elt F) (a4.view.writes (Elt F) f
        ((⟨Rect.unit ![0, 0] S512x1.size inb_S512x1_S512x1_0_0, w⟩ : View.Piece (Elt F) S512x1 .f32) :: L)) = w := by
  rw [View.read_writes_eq_canon _ _ _ (fun y => ⟨_, List.mem_cons_self, View.mem_set_unit_zero zero_off1 inb_S512x1_S512x1_0_0 y⟩),
    View.canon_cons_unit_zero zero_off1]

/-- One trip writes one piece over the whole accumulator: the step's value of the two chunks it loads and of what it
    finds in the accumulator. -/
theorem tripL1_eq (𝒱 : Variants) (c : Dev nD) (bd : Option 𝒱.V) (i : grid1.Coords) (a1 : Memref sig .tc .vmem S512x4096 .f32) (h1 : a1.IsWhole) (a2 : Memref sig .tc .vmem S1x4096 .f32) (h2 : a2.IsWhole) (a3 : Memref sig .tc .vmem S512x1 .f32) (h3 : a3.IsWhole) (a4 : Memref sig .tc .vmem S512x1 .f32) (h4 : a4.IsWhole)
    (X1 : BufTy.Contents (Elt F) a1.view.ty) (X2 : BufTy.Contents (Elt F) a2.view.ty) (k : Fin k1_t1_loop.trips) (f4 : BufTy.Contents (Elt F) a4.view.ty) :
    tripL_k1_t1 (F := F) 𝒱 c bd i a1 h1 a2 h2 a3 h3 a4 h4 X1 X2 k f4
      = [⟨Rect.unit ![0, 0] S512x1.size inb_S512x1_S512x1_0_0,
          k1_pay2 (View.readAt (Elt F) a1.view (Rect.unit (s := S512x4096) (k1_off1 k) S512x1024.size (k1_off1_inb k)).toLoadRect X1)
            (View.readAt (Elt F) a2.view (Rect.unit (s := S1x4096) (k1_off2 k) S1x1024.size (k1_off2_inb k)).toLoadRect X2)
            (View.readAt (Elt F) a4.view (Rect.unit (s := S512x1) ![0, 0] S512x1.size inb_S512x1_S512x1_0_0).toLoadRect f4)⟩] := by
  unfold tripL_k1_t1
  unfold trip_k1_t1
  rfl

/-- One step of the accumulator at chunk `k`: the step's value of the two blocks' chunks and of the accumulator. -/
def step1 (x0 : Vec F S512x4096 .f32) (x1 : Vec F S1x4096 .f32) (k : Fin k1_t1_loop.trips) (v : Vec F S512x1 .f32) : Vec F S512x1 .f32 :=
  k1_pay2 (View.ld x0 (Rect.unit (s := S512x4096) (k1_off1 k) S512x1024.size (k1_off1_inb k)))
    (View.ld x1 (Rect.unit (s := S1x4096) (k1_off2 k) S1x1024.size (k1_off2_inb k))) v

/-- The accumulator column after `k` trips, as a function of the point's two input blocks: zero, then one step per
    chunk of 1024 columns. -/
def acc1 (x0 : Vec F S512x4096 .f32) (x1 : Vec F S1x4096 .f32) : ℕ → Vec F S512x1 .f32
  | 0 => k1_pay1
  | k + 1 => if h : k < k1_t1_loop.trips then step1 x0 x1 ⟨k, h⟩ (acc1 x0 x1 k) else acc1 x0 x1 k

theorem acc1_zero (x0 : Vec F S512x4096 .f32) (x1 : Vec F S1x4096 .f32) : acc1 x0 x1 0 = k1_pay1 := rfl

theorem acc1_succ (x0 : Vec F S512x4096 .f32) (x1 : Vec F S1x4096 .f32) (k : ℕ) (h : k < k1_t1_loop.trips) :
    acc1 x0 x1 (k + 1) = step1 x0 x1 ⟨k, h⟩ (acc1 x0 x1 k) := by
  rw [acc1, dif_pos h]

/-- The pieces of the trips so far, after one more trip. -/
theorem pb1_succ (c : Dev nD) (i : grid1.Coords) (a1 : Memref sig .tc .vmem S512x4096 .f32) (h1 : a1.IsWhole) (a2 : Memref sig .tc .vmem S1x4096 .f32) (h2 : a2.IsWhole) (a3 : Memref sig .tc .vmem S512x1 .f32) (h3 : a3.IsWhole) (a4 : Memref sig .tc .vmem S512x1 .f32) (h4 : a4.IsWhole)
    (X1 : BufTy.Contents (Elt F) a1.view.ty) (X2 : BufTy.Contents (Elt F) a2.view.ty) (G : BufTy.Contents (Elt F) a4.view.ty)
    (k : ℕ) (hk : k < k1_t1_loop.trips) :
    pb_k1_t1 (F := F) Variants.none c none i a1 h1 a2 h2 a3 h3 a4 h4 X1 X2 G (k + 1)
      = tripL_k1_t1 (F := F) Variants.none c none i a1 h1 a2 h2 a3 h3 a4 h4 X1 X2 ⟨k, hk⟩
          (a4.view.writes (Elt F) G (pb_k1_t1 (F := F) Variants.none c none i a1 h1 a2 h2 a3 h3 a4 h4 X1 X2 G k))
        ++ pb_k1_t1 (F := F) Variants.none c none i a1 h1 a2 h2 a3 h3 a4 h4 X1 X2 G k :=
  pb_k1_t1_succ (F := F) Variants.none c none i a1 h1 a2 h2 a3 h3 a4 h4 X1 X2 G ⟨k, hk⟩

theorem pb1_zero (c : Dev nD) (i : grid1.Coords) (a1 : Memref sig .tc .vmem S512x4096 .f32) (h1 : a1.IsWhole) (a2 : Memref sig .tc .vmem S1x4096 .f32) (h2 : a2.IsWhole) (a3 : Memref sig .tc .vmem S512x1 .f32) (h3 : a3.IsWhole) (a4 : Memref sig .tc .vmem S512x1 .f32) (h4 : a4.IsWhole)
    (X1 : BufTy.Contents (Elt F) a1.view.ty) (X2 : BufTy.Contents (Elt F) a2.view.ty) (G : BufTy.Contents (Elt F) a4.view.ty) :
    pb_k1_t1 (F := F) Variants.none c none i a1 h1 a2 h2 a3 h3 a4 h4 X1 X2 G 0 = [] := rfl

/-- What the accumulator holds after the zeroing store and `k` trips, read back. -/
theorem acc1_read (c : Dev nD) (i : grid1.Coords) (a1 : Memref sig .tc .vmem S512x4096 .f32) (h1 : a1.IsWhole) (a2 : Memref sig .tc .vmem S1x4096 .f32) (h2 : a2.IsWhole) (a3 : Memref sig .tc .vmem S512x1 .f32) (h3 : a3.IsWhole) (a4 : Memref sig .tc .vmem S512x1 .f32) (h4 : a4.IsWhole)
    (x0 : Vec F S512x4096 .f32) (x1 : Vec F S1x4096 .f32) (k : ℕ) (hk : k ≤ k1_t1_loop.trips) :
      a4.view.read (Elt F) (a4.view.writes (Elt F) a4.view.junk
        (pb_k1_t1 Variants.none c none i a1 h1 a2 h2 a3 h3 a4 h4 (h1.unread x0) (h2.unread x1)
            (a4.view.writes (Elt F) a4.view.junk [zeroPiece1]) k ++ [zeroPiece1]))
        = acc1 x0 x1 k := by
  induction k with
  | zero =>
    rw [pb1_zero, List.nil_append, acc1_zero]
    exact read_cons_whole1 a4 _ _ _
  | succ k ih =>
    have hk' : k < k1_t1_loop.trips := hk
    rw [pb1_succ c i a1 h1 a2 h2 a3 h3 a4 h4 _ _ _ k hk', tripL1_eq, List.singleton_append, List.cons_append,
      read_cons_whole1, acc1_succ x0 x1 k hk']
    unfold step1
    simp only [View.readAt_eq_ld, h1.read_unread, h2.read_unread, View.ld_unit_zero (S := S512x1) zero_off1]
    rw [← View.writes_append, ih (Nat.le_of_lt hk')]

set_option maxHeartbeats 400000 in
/-- What the body leaves in the output buffer: 0 − accumulator, the accumulator as it is after all the trips. -/
theorem out1_2_eq (c : Dev nD) (i : grid1.Coords) (a1 : Memref sig .tc .vmem S512x4096 .f32) (h1 : a1.IsWhole) (a2 : Memref sig .tc .vmem S1x4096 .f32) (h2 : a2.IsWhole) (a3 : Memref sig .tc .vmem S512x1 .f32) (h3 : a3.IsWhole) (a4 : Memref sig .tc .vmem S512x1 .f32) (h4 : a4.IsWhole)
    (x0 : Vec F S512x4096 .f32) (x1 : Vec F S1x4096 .f32) :
    out1_2 c i a1 h1 a2 h2 a3 h3 a4 h4 x0 x1 = k1_pay3 (acc1 x0 x1 k1_t1_loop.trips) := by
  unfold out1_2
  rw [View.read_writes_eq_canon _ _ _ (cover1_2 c i a1 h1 a2 h2 a3 h3 a4 h4 x0 x1)]
  unfold kernelRun1
  dsimp only
  sl_unfold_words
  rw [View.canon_unit_zero zero_off1]
  refine congrArg k1_pay3 ?_
  rw [View.readAt_eq_ld, View.ld_unit_zero (S := S512x1) zero_off1]
  exact acc1_read c i a1 h1 a2 h2 a3 h3 a4 h4 x0 x1 _ (Nat.le_refl _)

/-! ## The same at the extended reals, entry by entry -/

theorem trips1 : k1_t1_loop.trips = 4 := by decide +kernel

/-- Chunk `k` of the row block: its column `j` is the block's column 1024·k + j. -/
theorem chunk1_0_apply (x0 : Vec F S512x4096 .f32) (k : Fin k1_t1_loop.trips) (r : Fin 512) (j : Fin 1024) (col : Fin 4096)
    (hcol : col.val = 1024 * k.val + j.val) :
    View.ld x0 (Rect.unit (s := S512x4096) (k1_off1 k) S512x1024.size (k1_off1_inb k)) (ix2 r j) = x0 (ix2 r col) := by
  have e0 : k1_off1 k 0 = 0 := by rw [k1_off1_eq]; rfl
  have e1 : k1_off1 k 1 = 1024 * k.val := by rw [k1_off1_eq]; rfl
  show x0 _ = x0 _
  refine congrArg x0 (funext fun a => Fin.ext ?_)
  match a with
  | ⟨0, _⟩ => show k1_off1 k 0 + 1 * r.val = r.val; omega
  | ⟨1, _⟩ => show k1_off1 k 1 + 1 * j.val = col.val; omega

/-- Chunk `k` of the row of norms: its column `j` is the row's column 1024·k + j. -/
theorem chunk1_1_apply (x1 : Vec F S1x4096 .f32) (k : Fin k1_t1_loop.trips) (j : Fin 1024) (col : Fin 4096)
    (hcol : col.val = 1024 * k.val + j.val) :
    View.ld x1 (Rect.unit (s := S1x4096) (k1_off2 k) S1x1024.size (k1_off2_inb k)) (ix2 (0 : Fin 1) j) = x1 (ix2 (0 : Fin 1) col) := by
  have e0 : k1_off2 k 0 = 0 := by rw [k1_off2_eq]; rfl
  have e1 : k1_off2 k 1 = 1024 * k.val := by rw [k1_off2_eq]; rfl
  show x1 _ = x1 _
  refine congrArg x1 (funext fun a => Fin.ext ?_)
  match a with
  | ⟨0, _⟩ => show k1_off2 k 0 + 1 * 0 = 0; omega
  | ⟨1, _⟩ => show k1_off2 k 1 + 1 * j.val = col.val; omega

/-- A row's entropy terms, column by column, from the point's two blocks. -/
def rowTerms1 (x0 : Vec Ideal S512x4096 .f32) (x1 : Vec Ideal S1x4096 .f32) (r : Fin 512) : Fin 4096 → EReal :=
  fun col => termOf (x0 (ix2 r col)) (max (x1 (ix2 (0 : Fin 1) col)) epsNorm)

/-- One step adds, in row `r`, the chunk's 1024 entropy terms of that row. -/
theorem step1_apply (x0 : Vec Ideal S512x4096 .f32) (x1 : Vec Ideal S1x4096 .f32) (k : Fin k1_t1_loop.trips) (hk : k.val < 4)
    (v : Vec Ideal S512x1 .f32) (r : Fin 512) :
    step1 (F := Ideal) x0 x1 k v (ix2 r (0 : Fin 1))
      = v (ix2 r 0) + ∑ j : Fin 1024, rowTerms1 x0 x1 r ⟨1024 * k.val + j.val, by omega⟩ := by
  unfold step1
  refine (pay12 _ _ v r).trans ?_
  refine congrArg (v (ix2 r 0) + ·) (Finset.sum_congr rfl fun j _ => ?_)
  show termOf (View.ld x0 (Rect.unit (s := S512x4096) (k1_off1 k) S512x1024.size (k1_off1_inb k)) (ix2 r j))
      (max (View.ld x1 (Rect.unit (s := S1x4096) (k1_off2 k) S1x1024.size (k1_off2_inb k)) (ix2 (0 : Fin 1) j)) epsNorm)
    = termOf (x0 (ix2 r ⟨1024 * k.val + j.val, by omega⟩)) (max (x1 (ix2 (0 : Fin 1) ⟨1024 * k.val + j.val, by omega⟩)) epsNorm)
  rw [chunk1_0_apply x0 k r j ⟨1024 * k.val + j.val, by omega⟩ rfl, chunk1_1_apply x1 k j ⟨1024 * k.val + j.val, by omega⟩ rfl]

/-- After `k` trips the accumulator's entry of row `r` is the sum of the row's first 1024·k entropy terms, a chunk at
    a time. -/
theorem acc1_apply (x0 : Vec Ideal S512x4096 .f32) (x1 : Vec Ideal S1x4096 .f32) (r : Fin 512) (k : ℕ) (hk : k ≤ 4) :
    acc1 (F := Ideal) x0 x1 k (ix2 r (0 : Fin 1)) = accTiles 1024 (extend (rowTerms1 x0 x1 r)) k := by
  induction k with
  | zero => rw [acc1_zero, accTiles_zero]; exact pay11 r
  | succ k ih =>
    have hk' : k < k1_t1_loop.trips := by rw [trips1]; omega
    rw [acc1_succ x0 x1 k hk', accTiles_succ, tile_cols (rowTerms1 x0 x1 r) k (by omega), ← ih (by omega)]
    exact step1_apply x0 x1 ⟨k, hk'⟩ (by show k < 4; omega) _ r

/-- What the body leaves in the output block's row `r`: minus the sum of the row's 4096 entropy terms. -/
theorem out1_apply (x0 : Vec Ideal S512x4096 .f32) (x1 : Vec Ideal S1x4096 .f32) (r : Fin 512) :
    k1_pay3 (F := Ideal) (acc1 x0 x1 k1_t1_loop.trips) (ix2 r (0 : Fin 1)) = -(∑ col : Fin 4096, rowTerms1 x0 x1 r col) := by
  refine (pay13 _ r).trans ?_
  rw [trips1, acc1_apply x0 x1 r 4 (Nat.le_refl _), ← sum_cols]

/-! ## The blocks the body finds, and the block it writes back, entry by entry -/

/-- The three windows' block indices over the grid: the argument's and the result's row block move with the point,
    the row of norms stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Blocks
variable (V : (c : Dev nD) → (b : Ref sig .tc) → Buf (Elt F) ((c : Thread nD τ).loc b))

/-- The argument's block at point `t`: its row `r` is the array's row 512·t + r. -/
theorem iblk1_0_apply (c : Dev nD) (t : Fin cfg1.N) (r : Fin 512) (col : Fin 4096) (R : Fin 16384)
    (hR : R.val = 512 * t.val + r.val) :
    (iblk1 V c 0 t : Vec F S512x4096 .f32) (ix2 r col) = (V c main_arg0 : S16384x4096.Idx → Elt F .f32) (ix2 R col) := by
  obtain ⟨e0, e1, -⟩ := idx_facts1 t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * r.val = R.val; rw [e0, hR]; omega
  | ⟨1, _⟩ => show win1_0.index t (1 : Fin 2) * 4096 + 1 * col.val = col.val; rw [e1]; omega

/-- The norms' block at every point is the whole row of norms. -/
theorem iblk1_1_apply (c : Dev nD) (t : Fin cfg1.N) (col : Fin 4096) :
    (iblk1 V c 1 t : Vec F S1x4096 .f32) (ix2 (0 : Fin 1) col) = (V c main_v0 : S1x4096.Idx → Elt F .f32) (ix2 (0 : Fin 1) col) := by
  obtain ⟨-, -, e2, e3, -⟩ := idx_facts1 t
  unfold iblk1
  rw [View.read_apply]
  show V c main_v0 _ = V c main_v0 _
  refine congrArg (V c main_v0) (funext fun a => Fin.ext ?_)
  match a with
  | ⟨0, _⟩ => show win1_1.index t (0 : Fin 2) * 1 + 1 * 0 = 0; rw [e2]
  | ⟨1, _⟩ => show win1_1.index t (1 : Fin 2) * 4096 + 1 * col.val = col.val; rw [e3]; omega

end Blocks

/-! ## The result array after the region, at the extended reals -/

section Final
variable (V : (c : Dev nD) → (b : Ref sig .tc) → Buf (Elt Ideal) ((c : Thread nD τ).loc b))

/-- A row's entropy from the region's buffers: minus the sum over the row of the entropy terms of the argument's
    entries, each normalised by max (its column's norm, ε₁). -/
def rowEnt1 (c : Dev nD) (R : Fin 16384) : EReal :=
  -(∑ k : Fin 4096, termOf ((V c main_arg0 : S16384x4096.Idx → EReal) (ix2 R k))
      (max ((V c main_v0 : S1x4096.Idx → EReal) (ix2 (0 : Fin 1) k)) epsNorm))

/-- The column of the rows' entropies. -/
def G1 (c : Dev nD) : S16384x1.Idx → EReal := fun i => rowEnt1 V c ⟨(i 0).val, idx2_lt0 i⟩

/-- What point `t` writes back is its block of the column of entropies. -/
theorem flushed1_2_eq (c : Dev nD) (t : Fin cfg1.N) :
    (dat1 (F := Ideal) V c).flushed 2 t = ((cfg1.win 2).blk t).view.read (Elt Ideal) (G1 V c) := by
  obtain ⟨e0, e1, e2, e3, e4, e5⟩ := idx_facts1 t
  have hN : cfg1.N = 32 := N_1
  have ht : t.val < 32 := hN ▸ t.isLt
  show (cfg1.win 2).cut (grid1.coords t) ((dat1 V c).after 2 t) = _
  rw [after1_2, out1_2_eq]
  refine funext fun (j : S512x1.Idx) => ?_
  obtain ⟨r, u, rfl⟩ : ∃ (r : Fin 512) (u : Fin 1), j = ix2 r u := ⟨j 0, j 1, eq_ix2 j⟩
  obtain rfl : u = 0 := Subsingleton.elim _ _
  have hemb : (((cfg1.win 2).blk t).view.emb (ix2 r (0 : Fin 1)) : S16384x1.Idx)
      = ix2 (⟨512 * t.val + r.val, by omega⟩ : Fin 16384) (0 : Fin 1) := by
    refine funext fun a => Fin.ext ?_
    match a with
    | ⟨0, _⟩ => show win1_2.index t (0 : Fin 2) * 512 + 1 * r.val = 512 * t.val + r.val; rw [e4]; omega
    | ⟨1, _⟩ => show win1_2.index t (1 : Fin 2) * 1 + 1 * 0 = 0; rw [e5]
  show k1_pay3 (acc1 (iblk1 V c 0 t) (iblk1 V c 1 t) k1_t1_loop.trips) (ix2 r (0 : Fin 1))
    = G1 V c (((cfg1.win 2).blk t).view.emb (ix2 r (0 : Fin 1)))
  rw [hemb]
  refine (out1_apply (iblk1 V c 0 t) (iblk1 V c 1 t) r).trans ?_
  show -(∑ col : Fin 4096, rowTerms1 (iblk1 V c 0 t) (iblk1 V c 1 t) r col)
    = rowEnt1 V c (⟨512 * t.val + r.val, by omega⟩ : Fin 16384)
  unfold rowEnt1 rowTerms1
  refine congrArg (fun s : EReal => -s) (Finset.sum_congr rfl fun col _ => ?_)
  rw [iblk1_0_apply V c t r col ⟨512 * t.val + r.val, by omega⟩ rfl, iblk1_1_apply V c t col]

/-- After the region the result array holds, in row `r`, that row's entropy. -/
theorem rowent_array (c : Dev nD) (r : Fin 16384) :
    ((dat1 (F := Ideal) V c).arrAt 2 cfg1.N (ix2 r (0 : Fin 1)) : EReal)
      = -(∑ k : Fin 4096, termOf (V c main_arg0 (ix2 r k)) (max (V c main_v0 (ix2 (0 : Fin 1) k)) epsNorm)) := by
  have hN : cfg1.N = 32 := N_1
  have hr : r.val < 16384 := r.isLt
  obtain ⟨t, htv⟩ : ∃ t : Fin cfg1.N, t.val = r.val / 512 := ⟨⟨r.val / 512, by rw [hN]; omega⟩, rfl⟩
  obtain ⟨e0, e1, e2, e3, e4, e5⟩ := idx_facts1 t
  refine ((dat1 (F := Ideal) V c).arrAt_apply_of_mem 2 (G1 V c) (fun t _ => flushed1_2_eq V c t) cfg1.N t
    (ix2 r (0 : Fin 1)) t.isLt (flush1_2 t) ?_).trans rfl
  show ix2 r (0 : Fin 1) ∈ ((View.whole main_v1).slice (win1_2.rect t)).set
  rw [View.set_slice_whole, Rect.mem_set_unit]
  intro a
  match a with
  | ⟨0, _⟩ =>
    show win1_2.index t (0 : Fin 2) * 512 ≤ r.val ∧ r.val < win1_2.index t (0 : Fin 2) * 512 + 512
    rw [e4, htv]; omega
  | ⟨1, _⟩ =>
    show win1_2.index t (1 : Fin 2) * 1 ≤ 0 ∧ 0 < win1_2.index t (1 : Fin 2) * 1 + 1
    rw [e5]; omega

end Final

end Cert.KernelIdeal.Hand

end
-- ==== Proof.KI_Value.lean ====
/-
  The idealized kernel's result is the specification's.

  After the two regions the host adds up the 16384 row entropies region 1 left and divides by 16384.
  Region 1 read, beside the argument, the column norms region 0 left; so a row's entry is
  −Σ_k term(x(r,k), max(sqrt(Σ_r x(r,k)²), ε₁)), which is the specification's row entropy, and the
  host's total over the [16384, 1] array is the sum over the rows.
-/
import proofs.«141915_j33500744909423_2_alg».proof.Proof.KI_Value0
import proofs.«141915_j33500744909423_2_alg».proof.Proof.KI_Value1
import proofs.«141915_j33500744909423_2_alg».proof.Proof.KI_Main
import proofs.«141915_j33500744909423_2_alg».proof.Proof.Spec
import proofs.«141915_j33500744909423_2_alg».proof.Proof.SumLaws
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo Cert.Entropy

variable (m : (ℓ : Loc nD τ sig) → Buf (Elt Ideal) ℓ)

/-- The last buffer's contents: the host's quotient of its total of region 1's array. -/
theorem tail_eq (c : Dev nD) :
    (Wd (F := Ideal) m c (Proc.devRef .tc main_v3) : S_.Idx → EReal)
      = Host.divf (F := Ideal) (Host.reduceAdd (F := Ideal) (Wc (F := Ideal) m c (Proc.devRef .tc main_v1)) (constant (F := Ideal) S_ .f32 0x00000000#32) reducesTo_S16384x1_S_d0_1 h_S_) (constant (F := Ideal) S_ .f32 0x46800000#32) := by
  show StableHlo.after hostOps2 _ (Proc.devRef .tc main_v3) = _
  after_results

/-- Region 1 finds the argument as launched. -/
theorem Vb_arg0 (c : Dev nD) : Vb (F := Ideal) m c main_arg0 = m ((c : Thread nD τ).loc main_arg0) :=
  (Wb_arr m c 0).trans (((dat0 (Va m) c).arrAt_in 0 rfl _).trans (A_eq0 (Va m) c 0))

/-- Region 1 finds, in the column-norm array, the square roots of the columns' sums of squares. -/
theorem Vb_v0 (c : Dev nD) (k : Fin 4096) :
    Vb (F := Ideal) m c main_v0 (ix2 (0 : Fin 1) k) = Ideal.sqrt (sqSum (m ((c : Thread nD τ).loc main_arg0)) k) :=
  (congrFun (Wb_arr m c 1) _).trans (colnorm_array (Va m) c k)

/-- A row's entry of region 1's array is the specification's row entropy. -/
theorem Wc_v1 (c : Dev nD) (r : Fin 16384) :
    Wc (F := Ideal) m c (Proc.devRef .tc main_v1) (ix2 r (0 : Fin 1)) = rowEnt (m ((c : Thread nD τ).loc main_arg0)) r := by
  refine (congrFun (Wc_arr m c 2) _).trans ((rowent_array (Vb m) c r).trans ?_)
  unfold rowEnt
  refine congrArg (fun s : EReal => -s) (Finset.sum_congr rfl fun k _ => ?_)
  rw [Vb_v0 m c k, Vb_arg0 m c]
  rfl

/-- The host's total of a [16384, 1] array, divided by the row count, is the sum over the rows divided by it. -/
theorem total_eq (y0 : S16384x1.Idx → EReal) (i : S_.Idx) :
    Host.divf (F := Ideal) (Host.reduceAdd (F := Ideal) y0 (constant (F := Ideal) S_ .f32 0x00000000#32) reducesTo_S16384x1_S_d0_1 h_S_) (constant (F := Ideal) S_ .f32 0x46800000#32) i
      = Ideal.div (∑ r : Fin 16384, y0 (ix2 r (0 : Fin 1))) (Ideal.ofBits .f32 0x46800000#32) := by
  simp only [Host.divf, Host.reduceAdd, Ideal.hostDivf_def, Ideal.hostReduceAdd_def]
  rw [Ideal.hostReduceAdd_total reducesTo_S16384x1_S_d0_1 (fun b => b.elim0) y0 _ _]
  show Ideal.div (Ideal.ofBits .f32 0x00000000#32 + ∑ j : S16384x1.Idx, y0 j) (Ideal.ofBits .f32 0x46800000#32) = _
  rw [Ideal.ofBits_zero_f32, zero_add, sum_col y0]

/-- The idealized kernel's result buffer ends at the mean of the rows' entropies. -/
theorem result_eq (c : Dev nD) :
    (Wd (F := Ideal) m c (Proc.devRef .tc main_v3) : S_.Idx → EReal) = meanEnt (m ((c : Thread nD τ).loc main_arg0)) := by
  rw [tail_eq]
  funext i
  refine (total_eq _ i).trans ?_
  unfold meanEnt rowCount
  exact congrArg (fun s : EReal => Ideal.div s (Ideal.ofBits .f32 0x46800000#32)) (Finset.sum_congr rfl fun r _ => Wc_v1 m c r)

end Cert.KernelIdeal.Hand

end
-- ==== Proof.RefValue.lean ====
/-
  The reference program, read entry by entry at the extended reals, is the function of the
  specification: each of its stages is identified with the matching piece of the formula
  (sum of squares per column, floored square root, quotient, entropy term, row sum, negation,
  total, division by the row count).
-/
import proofs.«141915_j33500744909423_2_alg».proof.Proof.Spec
import proofs.«141915_j33500744909423_2_alg».proof.Proof.Gen.ReferenceIdeal.Read

noncomputable section

open scoped BigOperators

namespace Cert.Entropy.Ref

open Cert.ReferenceIdeal Cert.ReferenceIdeal.Read Idealize.ShloMosaic Idealize.ShloMosaic.ValueIdx

/-- The argument array, as the reference's first operand. -/
abbrev Arg : Type := (⟨S16384x4096, .f32⟩ : BufTy).Contents (Elt Ideal)

/-! ### The index functions of the layout stages, on coordinates -/

theorem idx_v1 (c : Fin 4096) (k : Fin 16384) : idx_main_v1 (ix1 c) k = ix2 k c :=
  funext fun a => Fin.ext (by match a with | ⟨0, _⟩ => rfl | ⟨1, _⟩ => rfl)

theorem idx_v2 (a : Fin 1) (c : Fin 4096) : idx_main_v2 (ix2 a c) = ix1 c :=
  funext fun a => Fin.ext (by match a with | ⟨0, _⟩ => rfl)

theorem idx_v6 (r : Fin 16384) (c : Fin 4096) : idx_main_v6 (ix2 r c) = ix2 (0 : Fin 1) c :=
  funext fun a => Fin.ext (by match a with | ⟨0, _⟩ => rfl | ⟨1, _⟩ => rfl)

theorem idx_v12 (r : Fin 16384) (k : Fin 4096) : idx_main_v12 (ix1 r) k = ix2 r k :=
  funext fun a => Fin.ext (by match a with | ⟨0, _⟩ => rfl | ⟨1, _⟩ => rfl)

/-! ### The stages -/

/-- The first sum: a column's sum of squares. -/
theorem v1_eq (x0 : Arg) (c : Fin 4096) : val_main_v1 (F := Ideal) x0 (ix1 c) = sqSum x0 c := by
  rw [val_main_v1_apply, val_main_cst_apply, Ideal.ofBits_def, Ideal.ofBits_zero_f32, zero_add]
  unfold sqSum
  refine Finset.sum_congr rfl fun k _ => ?_
  rw [idx_v1, val_main_v0_apply, Ideal.mulf_def]

/-- The floored square root: a column's norm. -/
theorem v5_eq (x0 : Arg) (a : Fin 1) (c : Fin 4096) : val_main_v5 (F := Ideal) x0 (ix2 a c) = colNorm x0 c := by
  rw [val_main_v5_apply, val_main_v3_apply, val_main_v2_apply, idx_v2, v1_eq, val_main_v4_apply,
    val_main_cst_0_apply, Ideal.maximumf_def, Ideal.hostUnary_sqrt_def, Ideal.ofBits_def]
  rfl

/-- The quotient: the normalised entry. -/
theorem v7_eq (x0 : Arg) (r : Fin 16384) (c : Fin 4096) :
    val_main_v7 (F := Ideal) x0 (ix2 r c) = Ideal.div (x0 (ix2 r c)) (colNorm x0 c) := by
  rw [val_main_v7_apply, val_main_v6_apply, idx_v6, v5_eq, Ideal.hostDivf_def]

/-- The product with the logarithm: one entry's entropy term. -/
theorem v11_eq (x0 : Arg) (r : Fin 16384) (c : Fin 4096) :
    val_main_v11 (F := Ideal) x0 (ix2 r c) = term x0 r c := by
  rw [val_main_v11_apply, val_main_v10_apply, val_main_v9_apply, val_main_v8_apply, val_main_cst_1_apply,
    v7_eq, Ideal.mulf_def, Ideal.hostUnary_log_def, Ideal.addf_def, Ideal.ofBits_def]
  rfl

/-- The second sum, negated: a row's entropy. -/
theorem v13_eq (x0 : Arg) (r : Fin 16384) : val_main_v13 (F := Ideal) x0 (ix1 r) = rowEnt x0 r := by
  rw [val_main_v13_apply, val_main_v12_apply, val_main_cst_2_apply, Ideal.ofBits_def, Ideal.ofBits_zero_f32,
    zero_add, Ideal.hostNegf_def, Ideal.negf_def]
  unfold rowEnt
  refine congrArg (fun s => -s) (Finset.sum_congr rfl fun k _ => ?_)
  rw [idx_v12, v11_eq]

/-- A rank-one index set is its one coordinate's range. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The reference computes the mean of the rows' entropies. -/
theorem ref_eq (x0 : Arg) : val_main_v15 (F := Ideal) x0 = meanEnt x0 := by
  funext i
  rw [val_main_v15_apply, val_main_v14_apply, val_main_cst_3_apply, val_main_cst_4_apply, Ideal.ofBits_def,
    Ideal.ofBits_def, Ideal.ofBits_zero_f32, zero_add, Ideal.hostDivf_def, sum_idx1]
  unfold meanEnt rowCount
  rw [Finset.sum_congr rfl fun r _ => v13_eq x0 r]

end Cert.Entropy.Ref

end
-- ==== Proof.lean ====
/-
  The certificate: a two-kernel program (column norms, then row entropies against them, then a host mean)
  against its whole-array reference, on the extended reals.

  Both printed programs of the kernel — as words and idealized — run to the end, fault nowhere and leave the
  argument array as launched: the run is built region by region for any float instance (two grid walks with
  their per-point obligations, then the host operations), and read once at each instance. The idealization
  rewrote nothing, so it preserves the kernel's meaning trivially. At the ideal instance the kernel's result
  is the mean over the rows r of −Σ_c p(r,c)·log(p(r,c) + ε₂) with p(r,c) = x(r,c)/max(sqrt(Σ_r x(r,c)²), ε₁):
  the column sums are accumulated over 16 row tiles and the row sums over 4 column chunks, which in a
  commutative monoid is the whole sum; the reference computes the same function directly.
-/
import proofs.«141915_j33500744909423_2_alg».proof.Defs
import proofs.«141915_j33500744909423_2_alg».proof.Proof.Gen.Kernel
import proofs.«141915_j33500744909423_2_alg».proof.Proof.Gen.KernelIdeal
import proofs.«141915_j33500744909423_2_alg».proof.Proof.Gen.ReferenceIdeal
import proofs.«141915_j33500744909423_2_alg».proof.Proof.Gen.ReferenceIdeal.Run
import proofs.«141915_j33500744909423_2_alg».proof.Proof.Gen.ReferenceIdeal.Read
import proofs.«141915_j33500744909423_2_alg».proof.Proof.Gen.Pre_finite_inputs
import proofs.«141915_j33500744909423_2_alg».proof.Proof.K_Main
import proofs.«141915_j33500744909423_2_alg».proof.Proof.KI_Main
import proofs.«141915_j33500744909423_2_alg».proof.Proof.KI_Value
import proofs.«141915_j33500744909423_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the argument both programs end with the mean of the rows' entropies of that argument. -/
theorem algebraic : Cert.algebraic_KernelIdeal_ReferenceIdeal := by
  intro m ρ m' ρ' _ hagree
  refine ⟨fun c => Cert.Entropy.meanEnt (m ((c.tc : Thread Cert.KernelIdeal.nD Cert.KernelIdeal.τ).loc Cert.KernelIdeal.main_arg0)), ?_, ?_⟩
  · exact (θ_run Cert.KernelIdeal.defs _ _).mono (fun _ h c =>
      ⟨(h c _ (Cert.KernelIdeal.Hand.mem_uc Cert.KernelIdeal.main_v3 (by decide))).trans (Cert.KernelIdeal.Hand.result_eq m c),
        (h c _ (Cert.KernelIdeal.Hand.mem_uc Cert.KernelIdeal.main_arg0 (by decide))).trans (Cert.KernelIdeal.Hand.Wd_main_arg0 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact (Cert.ReferenceIdeal.Read.val_main_v15_eq _).trans (Cert.Entropy.Ref.ref_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
